-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x1024 : Shape := ⟨3, ![16, 256, 1024]⟩
abbrev S16x4096x1024 : Shape := ⟨3, ![16, 4096, 1024]⟩
abbrev S16x4096 : Shape := ⟨2, ![16, 4096]⟩
abbrev S16x1024x4096 : Shape := ⟨3, ![16, 1024, 4096]⟩
abbrev S16x1024 : Shape := ⟨2, ![16, 1024]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S16x4096x1024 : S_.BroadcastsInDim S16x4096x1024 (![] : Fin 0 → Fin S16x4096x1024.rank)
  reducesTo_S16x4096x1024_S_d0_1_2 : S16x4096x1024.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S16x1024x4096 : S_.BroadcastsInDim S16x1024x4096 (![] : Fin 0 → Fin S16x1024x4096.rank)
  reducesTo_S16x1024x4096_S_d0_1_2 : S16x1024x4096.ReducesTo [0, 1, 2] S_
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_arg4 : FVec F S16x1024 .f32) (main_v13 : IVec S_ 1) (main_v16 : IVec S16x1024x4096 1) : IVec S_ 1 :=
  let main_c_5 : IVec S_ 1 := constantI S_ 1 1#1
  let main_v17 : IVec S_ 1 := (fun x v => Host.reduce IntOp.andi x v reducesTo_S16x1024x4096_S_d0_1_2 h_S_) main_v16 main_c_5
  let main_v18 : IVec S_ 1 := andi main_v13 main_v17
  let main_v19 : FVec F S16x1024 .f32 := Host.absf main_arg4
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  main_v23

def fn {F : FTy → Type} [FloatOps F] (main_arg0 : FVec F S16x256x1024 .f32) (main_arg1 : FVec F S16x4096x1024 .f32) (main_arg2 : FVec F S16x4096 .f32) (main_arg3 : FVec F S16x1024x4096 .f32) (main_arg4 : FVec F S16x1024 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S16x4096x1024 .f32 := Host.absf main_arg1
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S16x1024x4096 .f32 := Host.absf main_arg3
  let main_cst_4 : FVec F S_ .f32 := constant S_ .f32 0x7F800000#32
  let main_v15 : FVec F S16x1024x4096 .f32 := broadcastInDim S16x1024x4096 ![] bcast_S_S16x1024x4096 main_cst_4
  let main_v16 : IVec S16x1024x4096 1 := cmpf .olt main_v14 main_v15
  fn_part1 (F := F) main_arg4 main_v13 main_v16
-- ==== Kernel.lean ====
abbrev S16x256x1024 : Shape := ⟨3, ![16, 256, 1024]⟩
abbrev S16x4096x1024 : Shape := ⟨3, ![16, 4096, 1024]⟩
abbrev S16x4096 : Shape := ⟨2, ![16, 4096]⟩
abbrev S16x1024x4096 : Shape := ⟨3, ![16, 1024, 4096]⟩
abbrev S16x1024 : Shape := ⟨2, ![16, 1024]⟩
abbrev S16x1x4096 : Shape := ⟨3, ![16, 1, 4096]⟩
abbrev S16x1x1024 : Shape := ⟨3, ![16, 1, 1024]⟩
abbrev S1x256x1024 : Shape := ⟨3, ![1, 256, 1024]⟩
abbrev S1x1024x1024 : Shape := ⟨3, ![1, 1024, 1024]⟩
abbrev S1x1x1024 : Shape := ⟨3, ![1, 1, 1024]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S16x4096, .f32⟩
  | .hbm, ⟨3, _⟩ => ⟨S16x1024x4096, .f32⟩
  | .hbm, ⟨4, _⟩ => ⟨S16x1024, .f32⟩
  | .hbm, ⟨5, _⟩ => ⟨S16x1x4096, .f32⟩
  | .hbm, ⟨6, _⟩ => ⟨S16x1x1024, .f32⟩
  | .hbm, ⟨7, _⟩ => ⟨S16x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_12 : BitVec 32 := 0#32
  let v20 : BitVec 1 := Scalar.cmpi .eq arg1 c0_i32_12
  let v21 : BitVec 32 := Scalar.extui v20
  let c0_i32_13 : BitVec 32 := 0#32
  let v22 : BitVec 1 := Scalar.cmpi .ne v21 c0_i32_13
  v22

def k0_cond3 (i : grid0.Coords) : BitVec 1 :=
  let arg1 : BitVec 32 := BitVec.ofNat 32 (i 1).val
  let c0_i32_14 : BitVec 32 := 0#32
  let v23 : BitVec 1 := Scalar.cmpi .sgt arg1 c0_i32_14
  let v24 : BitVec 32 := Scalar.extui v23
  let c0_i32_15 : BitVec 32 := 0#32
  let v25 : BitVec 1 := Scalar.cmpi .ne v24 c0_i32_15
  v25

def k0_cond4 (i : grid0.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_16 : BitVec 32 := 0#32
  let v28 : BitVec 1 := Scalar.cmpi .ne v27 c0_i32_16
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S16x4096_S16x1x4096 : S16x4096.ShapeCasts S16x1x4096
  shapeCasts_S16x1024_S16x1x1024 : S16x1024.ShapeCasts S16x1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  packedbf16_S256x1024_S256x1024_0_0 : (Rect.unit (s := S256x1024) ![0, 0] S256x1024.size inb_S256x1024_S256x1024_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S256x1024 : S1x1024.Broadcasts S256x1024
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x256x1024.size a
  hwx0_0 : ∀ i : grid0.Coords, EltTy.bits .f32 = 32 ∨ (Rect.block (s := S16x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x4096x1024.size a
  hwx0_1 : ∀ i : grid0.Coords, EltTy.bits .f32 = 32 ∨ (Rect.block (s := S16x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x4096.size a
  hwx0_2 : ∀ i : grid0.Coords, EltTy.bits .f32 = 32 ∨ (Rect.block (s := S16x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x4096.size a
  hwx0_3 : ∀ i : grid0.Coords, EltTy.bits .f32 = 32 ∨ (Rect.block (s := S16x1024x4096) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S16x1x1024.size a
  hwx0_4 : ∀ i : grid0.Coords, EltTy.bits .f32 = 32 ∨ (Rect.block (s := S16x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x256x1024.size a
  hwx0_5 : ∀ i : grid0.Coords, EltTy.bits .f32 = 32 ∨ (Rect.block (s := S16x256x1024) S1x256x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) && !(k0_cond3 i == 1#1) && !(k0_cond4 i == 1#1) | ⟨_ + 6, h⟩ => absurd h (Nat.not_lt.2 (Nat.le_add_left _ _))

class Facts : Prop extends Facts₀ where

variable [Facts]
-- ==== ReferenceIdeal.lean ====
abbrev S16x256x1024 : Shape := ⟨3, ![16, 256, 1024]⟩
abbrev S16x4096x1024 : Shape := ⟨3, ![16, 4096, 1024]⟩
abbrev S16x4096 : Shape := ⟨2, ![16, 4096]⟩
abbrev S16x1024x4096 : Shape := ⟨3, ![16, 1024, 4096]⟩
abbrev S16x1024 : Shape := ⟨2, ![16, 1024]⟩
abbrev S16x256x4096 : Shape := ⟨3, ![16, 256, 4096]⟩
abbrev S16x1x4096 : Shape := ⟨3, ![16, 1, 4096]⟩
abbrev S_ : Shape := ⟨0, ![]⟩
abbrev S16x1x1024 : Shape := ⟨3, ![16, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S16x4096, .f32⟩
  | .hbm, ⟨3, _⟩ => ⟨S16x1024x4096, .f32⟩
  | .hbm, ⟨4, _⟩ => ⟨S16x1024, .f32⟩
  | .hbm, ⟨5, _⟩ => ⟨S16x256x4096, .f32⟩
  | .hbm, ⟨6, _⟩ => ⟨S16x1x4096, .f32⟩
  | .hbm, ⟨7, _⟩ => ⟨S16x256x4096, .f32⟩
  | .hbm, ⟨8, _⟩ => ⟨S16x256x4096, .f32⟩
  | .hbm, ⟨9, _⟩ => ⟨S16x256x4096, .f32⟩
  | .hbm, ⟨10, _⟩ => ⟨S16x256x4096, .f32⟩
  | .hbm, ⟨11, _⟩ => ⟨S_, .f32⟩
  | .hbm, ⟨12, _⟩ => ⟨S16x256x4096, .f32⟩
  | .hbm, ⟨13, _⟩ => ⟨S16x256x4096, .f32⟩
  | .hbm, ⟨14, _⟩ => ⟨S_, .f32⟩
  | .hbm, ⟨15, _⟩ => ⟨S16x256x4096, .f32⟩
  | .hbm, ⟨16, _⟩ => ⟨S16x256x4096, .f32⟩
  | .hbm, ⟨17, _⟩ => ⟨S16x256x4096, .f32⟩
  | .hbm, ⟨18, _⟩ => ⟨S16x256x1024, .f32⟩
  | .hbm, ⟨19, _⟩ => ⟨S16x1x1024, .f32⟩
  | .hbm, ⟨20, _⟩ => ⟨S16x256x1024, .f32⟩
  | .hbm, ⟨21, _⟩ => ⟨S16x256x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]

class Facts₀ : Prop where
  bcast_S16x4096_S16x1x4096_0_2 : S16x4096.BroadcastsInDim S16x1x4096 (![0, 2] : Fin 2 → Fin S16x1x4096.rank)
  bcast_S16x1x4096_S16x256x4096_0_1_2 : S16x1x4096.BroadcastsInDim S16x256x4096 (![0, 1, 2] : Fin 3 → Fin S16x256x4096.rank)
  bcast_S_S16x256x4096 : S_.BroadcastsInDim S16x256x4096 (![] : Fin 0 → Fin S16x256x4096.rank)
  bcast_S16x1024_S16x1x1024_0_2 : S16x1024.BroadcastsInDim S16x1x1024 (![0, 2] : Fin 2 → Fin S16x1x1024.rank)
  bcast_S16x1x1024_S16x256x1024_0_1_2 : S16x1x1024.BroadcastsInDim S16x256x1024 (![0, 1, 2] : Fin 3 → Fin S16x256x1024.rank)
  dot_S16x256x1024_S16x4096x1024_S16x256x4096_2_2_1_1_0_0_wf : DotDims.WF S16x256x1024 S16x4096x1024 S16x256x4096 [2] [2] [1] [1] [0] [0]
  dot_S16x256x4096_S16x1024x4096_S16x256x1024_2_2_1_1_0_0_wf : DotDims.WF S16x256x4096 S16x1024x4096 S16x256x1024 [2] [2] [1] [1] [0] [0]

variable [Facts₀]

def dot_S16x256x1024_S16x4096x1024_S16x256x4096_2_2_1_1_0_0 : DotDims S16x256x1024 S16x4096x1024 S16x256x4096 where
  lhsContracting := [2]
  rhsContracting := [2]
  lhsNonContracting := [1]
  rhsNonContracting := [1]
  lhsBatch := [0]
  rhsBatch := [0]
  wf := dot_S16x256x1024_S16x4096x1024_S16x256x4096_2_2_1_1_0_0_wf
def dot_S16x256x4096_S16x1024x4096_S16x256x1024_2_2_1_1_0_0 : DotDims S16x256x4096 S16x1024x4096 S16x256x1024 where
  lhsContracting := [2]
  rhsContracting := [2]
  lhsNonContracting := [1]
  rhsNonContracting := [1]
  lhsBatch := [0]
  rhsBatch := [0]
  wf := dot_S16x256x4096_S16x1024x4096_S16x256x1024_2_2_1_1_0_0_wf

class Facts : Prop extends Facts₀ where

variable [Facts]
-- ==== Proof.K.Cases.lean ====
/-
  The control of the feed-forward body over the grid (expert e, reduction tile f), f = t mod 4:
  the cast of the activations into the scratch and the first write of the output happen at f = 0,
  the accumulation at f > 0, the second bias at f = 3. The four branch conditions are decided over
  the 64 points; the output window is live at every point and written back exactly at f = 3.
-/
import proofs.«104673_j137438954163_2_alg».proof.Proof.Gen.Kernel.Frame
import proofs.«104673_j137438954163_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The first conditional (cast the activations into the scratch): the scalar chain over the grid coordinate f. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (write the partial product): f = 0. -/
abbrev cond0_1 (i : grid0.Coords) : Prop := k0_cond2 i = 1#1
theorem hcond0_1 : ∀ t : Fin cfg0.N, cond0_1 (grid0.coords t) ↔ t.val % 4 = 0 :=
  (by decide +kernel : ∀ t : Fin grid0.N, cond0_1 (grid0.coords t) ↔ t.val % 4 = 0)

/-- The third conditional (add the partial product): f > 0. -/
abbrev cond0_2 (i : grid0.Coords) : Prop := k0_cond3 i = 1#1
theorem hcond0_2 : ∀ t : Fin cfg0.N, cond0_2 (grid0.coords t) ↔ ¬ t.val % 4 = 0 :=
  (by decide +kernel : ∀ t : Fin grid0.N, cond0_2 (grid0.coords t) ↔ ¬ t.val % 4 = 0)

/-- The fourth conditional (add the second bias): f = 3. -/
abbrev cond0_3 (i : grid0.Coords) : Prop := k0_cond4 i = 1#1
theorem hcond0_3 : ∀ t : Fin cfg0.N, cond0_3 (grid0.coords t) ↔ t.val % 4 = 3 :=
  (by decide +kernel : ∀ t : Fin grid0.N, cond0_3 (grid0.coords t) ↔ t.val % 4 = 3)

/-! ## No window is idle anywhere -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The three cases the grid meets -/

theorem caseA (t : Fin cfg0.N) (h0 : t.val % 4 = 0) :
    cond0_0 (grid0.coords t) ∧ cond0_1 (grid0.coords t) ∧ ¬cond0_2 (grid0.coords t) ∧ ¬cond0_3 (grid0.coords t) :=
  ⟨(hcond0_0 t).mpr h0, (hcond0_1 t).mpr h0, fun h => (hcond0_2 t).mp h h0, fun h => by have := (hcond0_3 t).mp h; omega⟩
theorem caseB (t : Fin cfg0.N) (h0 : ¬t.val % 4 = 0) (h3 : ¬t.val % 4 = 3) :
    ¬cond0_0 (grid0.coords t) ∧ ¬cond0_1 (grid0.coords t) ∧ cond0_2 (grid0.coords t) ∧ ¬cond0_3 (grid0.coords t) :=
  ⟨fun h => h0 ((hcond0_0 t).mp h), fun h => h0 ((hcond0_1 t).mp h), (hcond0_2 t).mpr h0, fun h => h3 ((hcond0_3 t).mp h)⟩
theorem caseC (t : Fin cfg0.N) (h3 : t.val % 4 = 3) :
    ¬cond0_0 (grid0.coords t) ∧ ¬cond0_1 (grid0.coords t) ∧ cond0_2 (grid0.coords t) ∧ cond0_3 (grid0.coords t) :=
  ⟨fun h => by have := (hcond0_0 t).mp h; omega, fun h => by have := (hcond0_1 t).mp h; omega, (hcond0_2 t).mpr (by omega), (hcond0_3 t).mpr h3⟩

/-- The output window is live at every coordinate: one of the two stores into it always runs. -/
theorem live5_all : ∀ i : grid0.Coords, cfg0.idle 5 i = false := by decide +kernel

/-! ## The staging and scratch memrefs -/

abbrev VO0_5 : View sig .tc .vmem S1x256x1024 .f32 := (Memref.whole cc0_stg5_0 : Memref sig .tc .vmem S1x256x1024 .f32).view
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1024 .f32 := win0_5.stage (cfg0.slots t 5)
abbrev hs0_5 (t : Fin cfg0.N) : (ms0_5 t).IsWhole := hstage0_5 ((cfg0.slots t 5).cast nbuf0_5)
/-- The scratch that keeps the cast activations of the current expert. -/
abbrev scM0_0 : Memref sig .tc .vmem S256x1024 .bf16 := Memref.whole cc0_scratch0
abbrev VS0_0 : View sig .tc .vmem S256x1024 .bf16 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body at a point with f = 0: the activations' block is cast and stored whole into the scratch,
  the partial product of this tile is written whole into the output's staging buffer. The pieces
  the two buffers end with are found by the symbolic run.
-/
import proofs.«104673_j137438954163_2_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple where f = 0: the five inputs at their blocks and handed back, the output's buffer and the
    scratch at anything, each left with its pieces written. -/
noncomputable def kernelRun0_A (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i)
    (x0 : Vec F S1x256x1024 .f32) (x1 : Vec F S1x1024x1024 .f32) (x2 : Vec F S1x1x1024 .f32) (x3 : Vec F S1x1024x1024 .f32) (x4 : Vec F S1x1x1024 .f32) :
    Σ' (L5 : List (View.Piece (Elt F) S1x256x1024 .f32)), { LS0 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, ?_, fun E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.RunB.lean ====
/-
  The body at a point with f = 1 or 2: the scratch is only read (it keeps the cast activations of the expert),
  the output's staging buffer holds the running sum of the earlier tiles and is overwritten with that sum plus this tile's partial product.
-/
import proofs.«104673_j137438954163_2_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple where 0 < f < 3: the inputs at their blocks, the output's buffer at the running sum `xo5`, the
    scratch at the cast activations `xs0` and handed back as it was; the output's buffer left with its pieces written. -/
noncomputable def kernelRun0_B (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : ¬cond0_3 i)
    (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) :
    { L5 : List (View.Piece (Elt F) S1x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, fun E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.Kernel.Hand

end
-- ==== Proof.K.RunC.lean ====
/-
  The body at a point with f = 3: the scratch is only read (it keeps the cast activations of the expert),
  the output's staging buffer holds the running sum of the earlier tiles and is overwritten with that sum plus this tile's partial product, and then again with the second bias added.
-/
import proofs.«104673_j137438954163_2_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple where f = 3: the inputs at their blocks, the output's buffer at the running sum `xo5`, the
    scratch at the cast activations `xs0` and handed back as it was; the output's buffer left with its pieces written. -/
noncomputable def kernelRun0_C (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : cond0_3 i)
    (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) :
    { L5 : List (View.Piece (Elt F) S1x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, fun E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.Kernel.Hand

end
-- ==== Proof.K.Frame.lean ====
/-
  The frame of the feed-forward kernel: what the output's staging buffer and the scratch hold after
  every grid point, by recursion on the point — at f = 0 the first tile's partial product and the cast
  activations, at f > 0 the running sum plus the tile's product over the kept scratch, at f = 3 that
  plus the second bias —, the proof data over it, the body obligation by cases on f, and the run.
-/
import proofs.«104673_j137438954163_2_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) (y : S1x256x1024.Idx) :
    ∃ pc ∈ (kernelRun0_A c i arg2 harg2 arg3 harg3 arg4 harg4 arg5 harg5 arg6 harg6 arg7 harg7 arg8 harg8 hc0 hc1 hc2 hc3 x0 x1 x2 x3 x4).1, y ∈ pc.1.set :=
  View.cover_of_tiledL (kernelRun0_A c i arg2 harg2 arg3 harg3 arg4 harg4 arg5 harg5 arg6 harg6 arg7 harg7 arg8 harg8 hc0 hc1 hc2 hc3 x0 x1 x2 x3 x4).1 S1x256x1024.size (by sl_kernel_rfl) y
/-- The output's staging buffer after a point with f = 0. -/
def out0_A_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) : Vec F S1x256x1024 .f32 :=
  VO0_5.read (Elt F) (VO0_5.writes (Elt F) VO0_5.junk (kernelRun0_A c i arg2 harg2 arg3 harg3 arg4 harg4 arg5 harg5 arg6 harg6 arg7 harg7 arg8 harg8 hc0 hc1 hc2 hc3 x0 x1 x2 x3 x4).1)
theorem scover0_A_0 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) (y : S256x1024.Idx) :
    ∃ pc ∈ (kernelRun0_A c i arg2 harg2 arg3 harg3 arg4 harg4 arg5 harg5 arg6 harg6 arg7 harg7 arg8 harg8 hc0 hc1 hc2 hc3 x0 x1 x2 x3 x4).2.1, y ∈ pc.1.set :=
  View.cover_of_tiledL (kernelRun0_A c i arg2 harg2 arg3 harg3 arg4 harg4 arg5 harg5 arg6 harg6 arg7 harg7 arg8 harg8 hc0 hc1 hc2 hc3 x0 x1 x2 x3 x4).2.1 S256x1024.size (by sl_kernel_rfl) y
/-- The scratch after a point with f = 0. -/
def sout0_A_0 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) : Vec F S256x1024 .bf16 :=
  VS0_0.read (Elt F) (VS0_0.writes (Elt F) VS0_0.junk (kernelRun0_A c i arg2 harg2 arg3 harg3 arg4 harg4 arg5 harg5 arg6 harg6 arg7 harg7 arg8 harg8 hc0 hc1 hc2 hc3 x0 x1 x2 x3 x4).2.1)

theorem cover0_B_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) (y : S1x256x1024.Idx) :
    ∃ pc ∈ (kernelRun0_B c i arg2 harg2 arg3 harg3 arg4 harg4 arg5 harg5 arg6 harg6 arg7 harg7 arg8 harg8 hc0 hc1 hc2 hc3 x0 x1 x2 x3 x4 xo5 xs0).1, y ∈ pc.1.set :=
  View.cover_of_tiledL (kernelRun0_B c i arg2 harg2 arg3 harg3 arg4 harg4 arg5 harg5 arg6 harg6 arg7 harg7 arg8 harg8 hc0 hc1 hc2 hc3 x0 x1 x2 x3 x4 xo5 xs0).1 S1x256x1024.size (by sl_kernel_rfl) y
/-- The output's staging buffer after a point with 0 < f < 3. -/
def out0_B_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) : Vec F S1x256x1024 .f32 :=
  VO0_5.read (Elt F) (VO0_5.writes (Elt F) VO0_5.junk (kernelRun0_B c i arg2 harg2 arg3 harg3 arg4 harg4 arg5 harg5 arg6 harg6 arg7 harg7 arg8 harg8 hc0 hc1 hc2 hc3 x0 x1 x2 x3 x4 xo5 xs0).1)

theorem cover0_C_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : cond0_3 i) (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) (y : S1x256x1024.Idx) :
    ∃ pc ∈ (kernelRun0_C c i arg2 harg2 arg3 harg3 arg4 harg4 arg5 harg5 arg6 harg6 arg7 harg7 arg8 harg8 hc0 hc1 hc2 hc3 x0 x1 x2 x3 x4 xo5 xs0).1, y ∈ pc.1.set :=
  View.cover_of_tiledL (kernelRun0_C c i arg2 harg2 arg3 harg3 arg4 harg4 arg5 harg5 arg6 harg6 arg7 harg7 arg8 harg8 hc0 hc1 hc2 hc3 x0 x1 x2 x3 x4 xo5 xs0).1 S1x256x1024.size (by sl_kernel_rfl) y
/-- The output's staging buffer after a point with f = 3. -/
def out0_C_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : cond0_3 i) (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) : Vec F S1x256x1024 .f32 :=
  VO0_5.read (Elt F) (VO0_5.writes (Elt F) VO0_5.junk (kernelRun0_C c i arg2 harg2 arg3 harg3 arg4 harg4 arg5 harg5 arg6 harg6 arg7 harg7 arg8 harg8 hc0 hc1 hc2 hc3 x0 x1 x2 x3 x4 xo5 xs0).1)

/-! ## What the output's buffer and the scratch hold after each point -/

/-- The pair (output staging buffer, scratch) after the body at position `n`. -/
def outsAt0 (c : Dev nD) : (n : ℕ) → n < cfg0.N → Vec F S1x256x1024 .f32 × Vec F S256x1024 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) (caseA ⟨0, hn⟩ (Nat.zero_mod _)).1 (caseA ⟨0, hn⟩ (Nat.zero_mod _)).2.1 (caseA ⟨0, hn⟩ (Nat.zero_mod _)).2.2.1 (caseA ⟨0, hn⟩ (Nat.zero_mod _)).2.2.2 (iblk m c 0 ⟨0, hn⟩) (iblk m c 1 ⟨0, hn⟩) (iblk m c 2 ⟨0, hn⟩) (iblk m c 3 ⟨0, hn⟩) (iblk m c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) (caseA ⟨0, hn⟩ (Nat.zero_mod _)).1 (caseA ⟨0, hn⟩ (Nat.zero_mod _)).2.1 (caseA ⟨0, hn⟩ (Nat.zero_mod _)).2.2.1 (caseA ⟨0, hn⟩ (Nat.zero_mod _)).2.2.2 (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (caseA ⟨n + 1, hn⟩ h0).1 (caseA ⟨n + 1, hn⟩ h0).2.1 (caseA ⟨n + 1, hn⟩ h0).2.2.1 (caseA ⟨n + 1, hn⟩ h0).2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (caseA ⟨n + 1, hn⟩ h0).1 (caseA ⟨n + 1, hn⟩ h0).2.1 (caseA ⟨n + 1, hn⟩ h0).2.2.1 (caseA ⟨n + 1, hn⟩ h0).2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h3 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (caseC ⟨n + 1, hn⟩ h3).1 (caseC ⟨n + 1, hn⟩ h3).2.1 (caseC ⟨n + 1, hn⟩ h3).2.2.1 (caseC ⟨n + 1, hn⟩ h3).2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2,
          (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (caseB ⟨n + 1, hn⟩ h0 h3).1 (caseB ⟨n + 1, hn⟩ h0 h3).2.1 (caseB ⟨n + 1, hn⟩ h0 h3).2.2.1 (caseB ⟨n + 1, hn⟩ h0 h3).2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2,
          (outsAt0 c n (Nat.lt_of_succ_lt hn)).2)

theorem outsAt0_A (c : Dev nD) (t : Fin cfg0.N) (h0 : t.val % 4 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseA t h0).1 (caseA t h0).2.1 (caseA t h0).2.2.1 (caseA t h0).2.2.2 (iblk m c 0 t) (iblk m c 1 t) (iblk m c 2 t) (iblk m c 3 t) (iblk m c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseA t h0).1 (caseA t h0).2.1 (caseA t h0).2.2.1 (caseA t h0).2.2.2 (iblk m c 0 t) (iblk m c 1 t) (iblk m c 2 t) (iblk m c 3 t) (iblk m c 4 t)) := by
  obtain ⟨n, hn⟩ := t
  cases n with
  | zero => exact rfl
  | succ n => exact (dif_pos h0).trans rfl

theorem outsAt0_B (c : Dev nD) (t : Fin cfg0.N) (h0 : ¬t.val % 4 = 0) (h3 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseB t h0 h3).1 (caseB t h0 h3).2.1 (caseB t h0 h3).2.2.1 (caseB t h0 h3).2.2.2 (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem outsAt0_C (c : Dev nD) (t : Fin cfg0.N) (h0 : ¬t.val % 4 = 0) (h3 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseC t h3).1 (caseC t h3).2.1 (caseC t h3).2.2.1 (caseC t h3).2.2.2 (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-- The region's invariant before position `n`: before the first point the scratch holds anything; afterwards
    what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a point with f > 0 the output's staging buffer holds what the point before left: the buffer was not
    written back between (the write-back happens after f = 3 only) and the window is live and uncut. -/
theorem before0_5_pos (c : Dev nD) (t : Fin cfg0.N) (h0 : ¬t.val % 4 = 0) (d) :
    (dats m 0 c).before 5 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    live5_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare ((outsAt0 m c t.val t.isLt).1) := by
  unfold Dat.leavesExact; rw [liveAt0_5 t, after0_5]

set_option maxHeartbeats 4800000 in
/-- The body at any point, by cases on f: the inputs' buffers hold their blocks; at f = 0 the output's buffer and
    (at the very first point) the scratch hold anything, else the scratch holds what the point before left, and at
    f > 0 so does the output's buffer; the case's run applies and the invariant takes the scratch back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  have hN : t.val < 64 := lt_of_lt_of_eq t.isLt (show cfg0.N = 64 from N_0)
  by_cases h0 : t.val % 4 = 0
  · rw [outsAt0_A m c t h0]
    unfold out0_A_5 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (caseA t h0).1 (caseA t h0).2.1 (caseA t h0).2.2.1 (caseA t h0).2.2.2 (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (caseA t h0).1 (caseA t h0).2.1 (caseA t h0).2.2.1 (caseA t h0).2.2.2 (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _ _)
  · have hz : t.val ≠ 0 := fun h => h0 (by rw [h])
    simp only [before0_5_pos m c t h0]
    rw [PhiS_castSucc m c t, PhiS_pos m c _ _ hz]
    by_cases h3 : t.val % 4 = 3
    · rw [outsAt0_C m c t h0 h3]
      unfold out0_C_5; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (caseC t h3).1 (caseC t h3).2.1 (caseC t h3).2.2.1 (caseC t h3).2.2.2 (iblk m c 0 t) (iblk m c 1 t) (iblk m c 2 t) (iblk m c 3 t) (iblk m c 4 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, ⟨%e5, H5⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _ _ _ _)
    · rw [outsAt0_B m c t h0 h3]
      unfold out0_B_5; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (caseB t h0 h3).1 (caseB t h0 h3).2.1 (caseB t h0 h3).2.2.1 (caseB t h0 h3).2.2.2 (iblk m c 0 t) (iblk m c 1 t) (iblk m c 2 t) (iblk m c 3 t) (iblk m c 4 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, ⟨%e5, H5⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, nothing faults, and every array of the pipeline ends at what
    the proof data computes: the output array the blocks written back after each expert's last tile. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KI.Cases.lean ====
/-
  The control of the feed-forward body over the grid (expert e, reduction tile f), f = t mod 4:
  the cast of the activations into the scratch and the first write of the output happen at f = 0,
  the accumulation at f > 0, the second bias at f = 3. The four branch conditions are decided over
  the 64 points; the output window is live at every point and written back exactly at f = 3.
-/
import proofs.«104673_j137438954163_2_alg».proof.Proof.Gen.KernelIdeal.Frame
import proofs.«104673_j137438954163_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The first conditional (cast the activations into the scratch): the scalar chain over the grid coordinate f. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (write the partial product): f = 0. -/
abbrev cond0_1 (i : grid0.Coords) : Prop := k0_cond2 i = 1#1
theorem hcond0_1 : ∀ t : Fin cfg0.N, cond0_1 (grid0.coords t) ↔ t.val % 4 = 0 :=
  (by decide +kernel : ∀ t : Fin grid0.N, cond0_1 (grid0.coords t) ↔ t.val % 4 = 0)

/-- The third conditional (add the partial product): f > 0. -/
abbrev cond0_2 (i : grid0.Coords) : Prop := k0_cond3 i = 1#1
theorem hcond0_2 : ∀ t : Fin cfg0.N, cond0_2 (grid0.coords t) ↔ ¬ t.val % 4 = 0 :=
  (by decide +kernel : ∀ t : Fin grid0.N, cond0_2 (grid0.coords t) ↔ ¬ t.val % 4 = 0)

/-- The fourth conditional (add the second bias): f = 3. -/
abbrev cond0_3 (i : grid0.Coords) : Prop := k0_cond4 i = 1#1
theorem hcond0_3 : ∀ t : Fin cfg0.N, cond0_3 (grid0.coords t) ↔ t.val % 4 = 3 :=
  (by decide +kernel : ∀ t : Fin grid0.N, cond0_3 (grid0.coords t) ↔ t.val % 4 = 3)

/-! ## No window is idle anywhere -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The three cases the grid meets -/

theorem caseA (t : Fin cfg0.N) (h0 : t.val % 4 = 0) :
    cond0_0 (grid0.coords t) ∧ cond0_1 (grid0.coords t) ∧ ¬cond0_2 (grid0.coords t) ∧ ¬cond0_3 (grid0.coords t) :=
  ⟨(hcond0_0 t).mpr h0, (hcond0_1 t).mpr h0, fun h => (hcond0_2 t).mp h h0, fun h => by have := (hcond0_3 t).mp h; omega⟩
theorem caseB (t : Fin cfg0.N) (h0 : ¬t.val % 4 = 0) (h3 : ¬t.val % 4 = 3) :
    ¬cond0_0 (grid0.coords t) ∧ ¬cond0_1 (grid0.coords t) ∧ cond0_2 (grid0.coords t) ∧ ¬cond0_3 (grid0.coords t) :=
  ⟨fun h => h0 ((hcond0_0 t).mp h), fun h => h0 ((hcond0_1 t).mp h), (hcond0_2 t).mpr h0, fun h => h3 ((hcond0_3 t).mp h)⟩
theorem caseC (t : Fin cfg0.N) (h3 : t.val % 4 = 3) :
    ¬cond0_0 (grid0.coords t) ∧ ¬cond0_1 (grid0.coords t) ∧ cond0_2 (grid0.coords t) ∧ cond0_3 (grid0.coords t) :=
  ⟨fun h => by have := (hcond0_0 t).mp h; omega, fun h => by have := (hcond0_1 t).mp h; omega, (hcond0_2 t).mpr (by omega), (hcond0_3 t).mpr h3⟩

/-- The output window is live at every coordinate: one of the two stores into it always runs. -/
theorem live5_all : ∀ i : grid0.Coords, cfg0.idle 5 i = false := by decide +kernel

/-! ## The staging and scratch memrefs -/

abbrev VO0_5 : View sig .tc .vmem S1x256x1024 .f32 := (Memref.whole cc0_stg5_0 : Memref sig .tc .vmem S1x256x1024 .f32).view
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1024 .f32 := win0_5.stage (cfg0.slots t 5)
abbrev hs0_5 (t : Fin cfg0.N) : (ms0_5 t).IsWhole := hstage0_5 ((cfg0.slots t 5).cast nbuf0_5)
/-- The scratch that keeps the cast activations of the current expert. -/
abbrev scM0_0 : Memref sig .tc .vmem S256x1024 .bf16 := Memref.whole cc0_scratch0
abbrev VS0_0 : View sig .tc .vmem S256x1024 .bf16 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body at a point with f = 0: the activations' block is cast and stored whole into the scratch,
  the partial product of this tile is written whole into the output's staging buffer. The pieces
  the two buffers end with are found by the symbolic run.
-/
import proofs.«104673_j137438954163_2_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple where f = 0: the five inputs at their blocks and handed back, the output's buffer and the
    scratch at anything, each left with its pieces written. -/
noncomputable def kernelRun0_A (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i)
    (x0 : Vec F S1x256x1024 .f32) (x1 : Vec F S1x1024x1024 .f32) (x2 : Vec F S1x1x1024 .f32) (x3 : Vec F S1x1024x1024 .f32) (x4 : Vec F S1x1x1024 .f32) :
    Σ' (L5 : List (View.Piece (Elt F) S1x256x1024 .f32)), { LS0 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, ?_, fun E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.RunB.lean ====
/-
  The body at a point with f = 1 or 2: the scratch is only read (it keeps the cast activations of the expert),
  the output's staging buffer holds the running sum of the earlier tiles and is overwritten with that sum plus this tile's partial product.
-/
import proofs.«104673_j137438954163_2_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple where 0 < f < 3: the inputs at their blocks, the output's buffer at the running sum `xo5`, the
    scratch at the cast activations `xs0` and handed back as it was; the output's buffer left with its pieces written. -/
noncomputable def kernelRun0_B (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : ¬cond0_3 i)
    (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) :
    { L5 : List (View.Piece (Elt F) S1x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, fun E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.KernelIdeal.Hand

end
-- ==== Proof.KI.RunC.lean ====
/-
  The body at a point with f = 3: the scratch is only read (it keeps the cast activations of the expert),
  the output's staging buffer holds the running sum of the earlier tiles and is overwritten with that sum plus this tile's partial product, and then again with the second bias added.
-/
import proofs.«104673_j137438954163_2_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple where f = 3: the inputs at their blocks, the output's buffer at the running sum `xo5`, the
    scratch at the cast activations `xs0` and handed back as it was; the output's buffer left with its pieces written. -/
noncomputable def kernelRun0_C (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : cond0_3 i)
    (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) :
    { L5 : List (View.Piece (Elt F) S1x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, fun E K => ?run⟩
  case run =>
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.KernelIdeal.Hand

end
-- ==== Proof.KI.Frame.lean ====
/-
  The frame of the feed-forward kernel: what the output's staging buffer and the scratch hold after
  every grid point, by recursion on the point — at f = 0 the first tile's partial product and the cast
  activations, at f > 0 the running sum plus the tile's product over the kept scratch, at f = 3 that
  plus the second bias —, the proof data over it, the body obligation by cases on f, and the run.
-/
import proofs.«104673_j137438954163_2_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) (y : S1x256x1024.Idx) :
    ∃ pc ∈ (kernelRun0_A c i arg2 harg2 arg3 harg3 arg4 harg4 arg5 harg5 arg6 harg6 arg7 harg7 arg8 harg8 hc0 hc1 hc2 hc3 x0 x1 x2 x3 x4).1, y ∈ pc.1.set :=
  View.cover_of_tiledL (kernelRun0_A c i arg2 harg2 arg3 harg3 arg4 harg4 arg5 harg5 arg6 harg6 arg7 harg7 arg8 harg8 hc0 hc1 hc2 hc3 x0 x1 x2 x3 x4).1 S1x256x1024.size (by sl_kernel_rfl) y
/-- The output's staging buffer after a point with f = 0. -/
def out0_A_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) : Vec F S1x256x1024 .f32 :=
  VO0_5.read (Elt F) (VO0_5.writes (Elt F) VO0_5.junk (kernelRun0_A c i arg2 harg2 arg3 harg3 arg4 harg4 arg5 harg5 arg6 harg6 arg7 harg7 arg8 harg8 hc0 hc1 hc2 hc3 x0 x1 x2 x3 x4).1)
theorem scover0_A_0 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) (y : S256x1024.Idx) :
    ∃ pc ∈ (kernelRun0_A c i arg2 harg2 arg3 harg3 arg4 harg4 arg5 harg5 arg6 harg6 arg7 harg7 arg8 harg8 hc0 hc1 hc2 hc3 x0 x1 x2 x3 x4).2.1, y ∈ pc.1.set :=
  View.cover_of_tiledL (kernelRun0_A c i arg2 harg2 arg3 harg3 arg4 harg4 arg5 harg5 arg6 harg6 arg7 harg7 arg8 harg8 hc0 hc1 hc2 hc3 x0 x1 x2 x3 x4).2.1 S256x1024.size (by sl_kernel_rfl) y
/-- The scratch after a point with f = 0. -/
def sout0_A_0 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) : Vec F S256x1024 .bf16 :=
  VS0_0.read (Elt F) (VS0_0.writes (Elt F) VS0_0.junk (kernelRun0_A c i arg2 harg2 arg3 harg3 arg4 harg4 arg5 harg5 arg6 harg6 arg7 harg7 arg8 harg8 hc0 hc1 hc2 hc3 x0 x1 x2 x3 x4).2.1)

theorem cover0_B_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) (y : S1x256x1024.Idx) :
    ∃ pc ∈ (kernelRun0_B c i arg2 harg2 arg3 harg3 arg4 harg4 arg5 harg5 arg6 harg6 arg7 harg7 arg8 harg8 hc0 hc1 hc2 hc3 x0 x1 x2 x3 x4 xo5 xs0).1, y ∈ pc.1.set :=
  View.cover_of_tiledL (kernelRun0_B c i arg2 harg2 arg3 harg3 arg4 harg4 arg5 harg5 arg6 harg6 arg7 harg7 arg8 harg8 hc0 hc1 hc2 hc3 x0 x1 x2 x3 x4 xo5 xs0).1 S1x256x1024.size (by sl_kernel_rfl) y
/-- The output's staging buffer after a point with 0 < f < 3. -/
def out0_B_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) : Vec F S1x256x1024 .f32 :=
  VO0_5.read (Elt F) (VO0_5.writes (Elt F) VO0_5.junk (kernelRun0_B c i arg2 harg2 arg3 harg3 arg4 harg4 arg5 harg5 arg6 harg6 arg7 harg7 arg8 harg8 hc0 hc1 hc2 hc3 x0 x1 x2 x3 x4 xo5 xs0).1)

theorem cover0_C_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : cond0_3 i) (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) (y : S1x256x1024.Idx) :
    ∃ pc ∈ (kernelRun0_C c i arg2 harg2 arg3 harg3 arg4 harg4 arg5 harg5 arg6 harg6 arg7 harg7 arg8 harg8 hc0 hc1 hc2 hc3 x0 x1 x2 x3 x4 xo5 xs0).1, y ∈ pc.1.set :=
  View.cover_of_tiledL (kernelRun0_C c i arg2 harg2 arg3 harg3 arg4 harg4 arg5 harg5 arg6 harg6 arg7 harg7 arg8 harg8 hc0 hc1 hc2 hc3 x0 x1 x2 x3 x4 xo5 xs0).1 S1x256x1024.size (by sl_kernel_rfl) y
/-- The output's staging buffer after a point with f = 3. -/
def out0_C_5 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : cond0_3 i) (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) : Vec F S1x256x1024 .f32 :=
  VO0_5.read (Elt F) (VO0_5.writes (Elt F) VO0_5.junk (kernelRun0_C c i arg2 harg2 arg3 harg3 arg4 harg4 arg5 harg5 arg6 harg6 arg7 harg7 arg8 harg8 hc0 hc1 hc2 hc3 x0 x1 x2 x3 x4 xo5 xs0).1)

/-! ## What the output's buffer and the scratch hold after each point -/

/-- The pair (output staging buffer, scratch) after the body at position `n`. -/
def outsAt0 (c : Dev nD) : (n : ℕ) → n < cfg0.N → Vec F S1x256x1024 .f32 × Vec F S256x1024 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) (caseA ⟨0, hn⟩ (Nat.zero_mod _)).1 (caseA ⟨0, hn⟩ (Nat.zero_mod _)).2.1 (caseA ⟨0, hn⟩ (Nat.zero_mod _)).2.2.1 (caseA ⟨0, hn⟩ (Nat.zero_mod _)).2.2.2 (iblk m c 0 ⟨0, hn⟩) (iblk m c 1 ⟨0, hn⟩) (iblk m c 2 ⟨0, hn⟩) (iblk m c 3 ⟨0, hn⟩) (iblk m c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) (caseA ⟨0, hn⟩ (Nat.zero_mod _)).1 (caseA ⟨0, hn⟩ (Nat.zero_mod _)).2.1 (caseA ⟨0, hn⟩ (Nat.zero_mod _)).2.2.1 (caseA ⟨0, hn⟩ (Nat.zero_mod _)).2.2.2 (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (caseA ⟨n + 1, hn⟩ h0).1 (caseA ⟨n + 1, hn⟩ h0).2.1 (caseA ⟨n + 1, hn⟩ h0).2.2.1 (caseA ⟨n + 1, hn⟩ h0).2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (caseA ⟨n + 1, hn⟩ h0).1 (caseA ⟨n + 1, hn⟩ h0).2.1 (caseA ⟨n + 1, hn⟩ h0).2.2.1 (caseA ⟨n + 1, hn⟩ h0).2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h3 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (caseC ⟨n + 1, hn⟩ h3).1 (caseC ⟨n + 1, hn⟩ h3).2.1 (caseC ⟨n + 1, hn⟩ h3).2.2.1 (caseC ⟨n + 1, hn⟩ h3).2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2,
          (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (caseB ⟨n + 1, hn⟩ h0 h3).1 (caseB ⟨n + 1, hn⟩ h0 h3).2.1 (caseB ⟨n + 1, hn⟩ h0 h3).2.2.1 (caseB ⟨n + 1, hn⟩ h0 h3).2.2.2 (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2,
          (outsAt0 c n (Nat.lt_of_succ_lt hn)).2)

theorem outsAt0_A (c : Dev nD) (t : Fin cfg0.N) (h0 : t.val % 4 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseA t h0).1 (caseA t h0).2.1 (caseA t h0).2.2.1 (caseA t h0).2.2.2 (iblk m c 0 t) (iblk m c 1 t) (iblk m c 2 t) (iblk m c 3 t) (iblk m c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseA t h0).1 (caseA t h0).2.1 (caseA t h0).2.2.1 (caseA t h0).2.2.2 (iblk m c 0 t) (iblk m c 1 t) (iblk m c 2 t) (iblk m c 3 t) (iblk m c 4 t)) := by
  obtain ⟨n, hn⟩ := t
  cases n with
  | zero => exact rfl
  | succ n => exact (dif_pos h0).trans rfl

theorem outsAt0_B (c : Dev nD) (t : Fin cfg0.N) (h0 : ¬t.val % 4 = 0) (h3 : ¬t.val % 4 = 3) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseB t h0 h3).1 (caseB t h0 h3).2.1 (caseB t h0 h3).2.2.1 (caseB t h0 h3).2.2.2 (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem outsAt0_C (c : Dev nD) (t : Fin cfg0.N) (h0 : ¬t.val % 4 = 0) (h3 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseC t h3).1 (caseC t h3).2.1 (caseC t h3).2.2.1 (caseC t h3).2.2.2 (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-- The region's invariant before position `n`: before the first point the scratch holds anything; afterwards
    what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a point with f > 0 the output's staging buffer holds what the point before left: the buffer was not
    written back between (the write-back happens after f = 3 only) and the window is live and uncut. -/
theorem before0_5_pos (c : Dev nD) (t : Fin cfg0.N) (h0 : ¬t.val % 4 = 0) (d) :
    (dats m 0 c).before 5 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    live5_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare ((outsAt0 m c t.val t.isLt).1) := by
  unfold Dat.leavesExact; rw [liveAt0_5 t, after0_5]

set_option maxHeartbeats 4800000 in
/-- The body at any point, by cases on f: the inputs' buffers hold their blocks; at f = 0 the output's buffer and
    (at the very first point) the scratch hold anything, else the scratch holds what the point before left, and at
    f > 0 so does the output's buffer; the case's run applies and the invariant takes the scratch back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  have hN : t.val < 64 := lt_of_lt_of_eq t.isLt (show cfg0.N = 64 from N_0)
  by_cases h0 : t.val % 4 = 0
  · rw [outsAt0_A m c t h0]
    unfold out0_A_5 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (caseA t h0).1 (caseA t h0).2.1 (caseA t h0).2.2.1 (caseA t h0).2.2.2 (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ (caseA t h0).1 (caseA t h0).2.1 (caseA t h0).2.2.1 (caseA t h0).2.2.2 (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _ _)
  · have hz : t.val ≠ 0 := fun h => h0 (by rw [h])
    simp only [before0_5_pos m c t h0]
    rw [PhiS_castSucc m c t, PhiS_pos m c _ _ hz]
    by_cases h3 : t.val % 4 = 3
    · rw [outsAt0_C m c t h0 h3]
      unfold out0_C_5; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (caseC t h3).1 (caseC t h3).2.1 (caseC t h3).2.2.1 (caseC t h3).2.2.2 (iblk m c 0 t) (iblk m c 1 t) (iblk m c 2 t) (iblk m c 3 t) (iblk m c 4 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, ⟨%e5, H5⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _ _ _ _)
    · rw [outsAt0_B m c t h0 h3]
      unfold out0_B_5; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (caseB t h0 h3).1 (caseB t h0 h3).2.1 (caseB t h0 h3).2.2.1 (caseB t h0 h3).2.2.2 (iblk m c 0 t) (iblk m c 1 t) (iblk m c 2 t) (iblk m c 3 t) (iblk m c 4 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, ⟨%e5, H5⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, nothing faults, and every array of the pipeline ends at what
    the proof data computes: the output array the blocks written back after each expert's last tile. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KI.Pieces.lean ====
/-
  What the found pieces are as values: the scratch after f = 0 is the cast of the activations' block; the
  output's staging buffer after each point is the tile's partial product (f = 0), the running sum plus the
  tile's partial product (f > 0), and, at f = 3, that plus the second bias.
-/
import proofs.«104673_j137438954163_2_alg».proof.Proof.KI.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- After a point with f = 0 the scratch holds the cast of the activations' block. -/
theorem sout_A (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) :
    sout0_A_0 c i arg2 harg2 arg3 harg3 arg4 harg4 arg5 harg5 arg6 harg6 arg7 harg7 arg8 harg8 hc0 hc1 hc2 hc3 x0 x1 x2 x3 x4 = k0_pay1 x0 := by
  unfold sout0_A_0
  rw [View.read_writes_eq_canon _ _ _ (scover0_A_0 c i arg2 harg2 arg3 harg3 arg4 harg4 arg5 harg5 arg6 harg6 arg7 harg7 arg8 harg8 hc0 hc1 hc2 hc3 x0 x1 x2 x3 x4)]
  unfold kernelRun0_A
  dsimp only
  sl_unfold_words
  rw [View.canon_unit_zero hz2]
  simp only [View.readAt_eq_ld, harg2.read_unread, View.ld_unit_zero (S := S1x256x1024) hz3]

/-- After a point with f = 0 the output's buffer holds the first tile's partial product, computed from the cast just stored. -/
theorem out_A (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : cond0_0 i) (hc1 : cond0_1 i) (hc2 : ¬cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) :
    out0_A_5 c i arg2 harg2 arg3 harg3 arg4 harg4 arg5 harg5 arg6 harg6 arg7 harg7 arg8 harg8 hc0 hc1 hc2 hc3 x0 x1 x2 x3 x4 = k0_pay3 (k0_pay1 x0) x1 x2 x3 := by
  unfold out0_A_5
  rw [View.read_writes_eq_canon _ _ _ (cover0_A_5 c i arg2 harg2 arg3 harg3 arg4 harg4 arg5 harg5 arg6 harg6 arg7 harg7 arg8 harg8 hc0 hc1 hc2 hc3 x0 x1 x2 x3 x4)]
  unfold kernelRun0_A
  dsimp only
  sl_unfold_words
  rw [View.canon_unit_zero hz3, View.readCov_unit_zero (S := S256x1024) _ hz2]
  simp only [View.readAt_eq_ld, harg2.read_unread, harg3.read_unread, harg4.read_unread, harg5.read_unread,
    View.ld_unit_zero (S := S1x256x1024) hz3, View.ld_unit_zero (S := S1x1024x1024) hz3, View.ld_unit_zero (S := S1x1x1024) hz3]

/-- After a point with 0 < f < 3 the output's buffer holds the running sum plus this tile's partial product. -/
theorem out_B (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : ¬cond0_3 i) (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) :
    out0_B_5 c i arg2 harg2 arg3 harg3 arg4 harg4 arg5 harg5 arg6 harg6 arg7 harg7 arg8 harg8 hc0 hc1 hc2 hc3 x0 x1 x2 x3 x4 xo5 xs0 = k0_pay4 xs0 x1 x2 x3 xo5 := by
  unfold out0_B_5
  rw [View.read_writes_eq_canon _ _ _ (cover0_B_5 c i arg2 harg2 arg3 harg3 arg4 harg4 arg5 harg5 arg6 harg6 arg7 harg7 arg8 harg8 hc0 hc1 hc2 hc3 x0 x1 x2 x3 x4 xo5 xs0)]
  unfold kernelRun0_B
  dsimp only
  sl_unfold_words
  rw [View.canon_unit_zero hz3]
  simp only [View.readAt_eq_ld, harg3.read_unread, harg4.read_unread, harg5.read_unread, harg7.read_unread, harg8.read_unread,
    View.ld_unit_zero (S := S1x256x1024) hz3, View.ld_unit_zero (S := S1x1024x1024) hz3, View.ld_unit_zero (S := S1x1x1024) hz3,
    View.ld_unit_zero (S := S256x1024) hz2]

/-- After a point with f = 3 the output's buffer holds the running sum plus the last tile's partial product plus the second bias. -/
theorem out_C (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x256x1024 .f32) (harg7 : arg7.IsWhole) (arg8 : Memref sig .tc .vmem S256x1024 .bf16) (harg8 : arg8.IsWhole) (hc0 : ¬cond0_0 i) (hc1 : ¬cond0_1 i) (hc2 : cond0_2 i) (hc3 : cond0_3 i) (x0 : Vec F S1x256x1024 .f32) (x1 : Vec F S1x1024x1024 .f32) (x2 : Vec F S1x1x1024 .f32) (x3 : Vec F S1x1024x1024 .f32) (x4 : Vec F S1x1x1024 .f32) (xo5 : Vec F S1x256x1024 .f32) (xs0 : Vec F S256x1024 .bf16) :
    out0_C_5 c i arg2 harg2 arg3 harg3 arg4 harg4 arg5 harg5 arg6 harg6 arg7 harg7 arg8 harg8 hc0 hc1 hc2 hc3 x0 x1 x2 x3 x4 xo5 xs0 = k0_pay5 x4 (k0_pay4 xs0 x1 x2 x3 xo5) := by
  unfold out0_C_5
  rw [View.read_writes_eq_canon _ _ _ (cover0_C_5 c i arg2 harg2 arg3 harg3 arg4 harg4 arg5 harg5 arg6 harg6 arg7 harg7 arg8 harg8 hc0 hc1 hc2 hc3 x0 x1 x2 x3 x4 xo5 xs0)]
  unfold kernelRun0_C
  dsimp only
  sl_unfold_words
  rw [View.canon_cons_unit_zero (S := S1x256x1024) hz3, View.readCov_unit_zero (S := S1x256x1024) _ hz3]
  simp only [View.readAt_eq_ld, harg3.read_unread, harg4.read_unread, harg5.read_unread, harg6.read_unread, harg7.read_unread, harg8.read_unread,
    View.ld_unit_zero (S := S1x256x1024) hz3, View.ld_unit_zero (S := S1x1024x1024) hz3, View.ld_unit_zero (S := S1x1x1024) hz3,
    View.ld_unit_zero (S := S256x1024) hz2]

end Cert.KernelIdeal.Hand
end
-- ==== Proof.Spec.lean ====
/-
  The expert feed-forward layer as one function of its five argument arrays, on the extended reals:
    out[e, b, d] = (∑ c < 4096, silu (∑ j < 1024, x[e, b, j] · w1[e, c, j] + b1[e, c]) · w2[e, d, c]) + b2[e, d],
  with silu z = z · logistic z; and the one law the tiled computation needs: the sum over the 4096 hidden
  columns is the sum of the four tiles of 1024 columns, added in order (addition on the extended reals is
  commutative and associative, so regrouping a finite sum is free).
-/
import Idealize.ShloMosaic.PureOps.Ideal
import Idealize.ShloMosaic.Lib.ValueIdx
import Mathlib

noncomputable section

namespace FeedForward

open Idealize.ShloMosaic Idealize.ShloMosaic.ValueIdx

abbrev SX : Shape := ⟨3, ![16, 256, 1024]⟩
abbrev SW1 : Shape := ⟨3, ![16, 4096, 1024]⟩
abbrev SB1 : Shape := ⟨2, ![16, 4096]⟩
abbrev SW2 : Shape := ⟨3, ![16, 1024, 4096]⟩
abbrev SB2 : Shape := ⟨2, ![16, 1024]⟩

/-- silu z = z · logistic z on the extended reals. -/
def silu (z : EReal) : EReal := z * Ideal.logistic z

variable (x : SX.Idx → EReal) (w1 : SW1.Idx → EReal) (b1 : SB1.Idx → EReal) (w2 : SW2.Idx → EReal) (b2 : SB2.Idx → EReal)

/-- The pre-activation of hidden column `c` of expert `e` at token `b`. -/
def hid (e : Fin 16) (b : Fin 256) (c : Fin 4096) : EReal :=
  (∑ j : Fin 1024, x (ix3 e b j) * w1 (ix3 e c j)) + b1 (ix2 e c)

/-- Hidden column `c`'s contribution to output feature `d`. -/
def term (e : Fin 16) (b : Fin 256) (d : Fin 1024) (c : Fin 4096) : EReal :=
  silu (hid x w1 b1 e b c) * w2 (ix3 e d c)

/-- The layer's output, index by index. -/
def out : SX.Idx → EReal := fun i =>
  (∑ c : Fin 4096, term x w1 b1 w2 (i 0) (i 1) (i 2) c) + b2 (ix2 (i 0) (i 2))

/-- Column `k` of reduction tile `f`. -/
abbrev col (f : Fin 4) (k : Fin 1024) : Fin 4096 := ⟨1024 * f.val + k.val, by have := f.isLt; have := k.isLt; omega⟩

/-- Tile `f`'s partial product. -/
def tile (e : Fin 16) (b : Fin 256) (d : Fin 1024) (f : Fin 4) : EReal :=
  ∑ k : Fin 1024, term x w1 b1 w2 e b d (col f k)

/-- A sum over 4096 columns is the four tiles' sums added in order. -/
theorem sum_tiles (g : Fin 4096 → EReal) :
    ∑ c : Fin 4096, g c = (((∑ k : Fin 1024, g (col 0 k)) + ∑ k : Fin 1024, g (col 1 k)) + ∑ k : Fin 1024, g (col 2 k)) + ∑ k : Fin 1024, g (col 3 k) := by
  have he : ∀ p : Fin 4 × Fin 1024, (finProdFinEquiv : Fin 4 × Fin 1024 ≃ Fin (4 * 1024)) p = col p.1 p.2 := fun p => Fin.ext (by
    show p.2.val + 1024 * p.1.val = 1024 * p.1.val + p.2.val; omega)
  rw [← Equiv.sum_comp (finProdFinEquiv : Fin 4 × Fin 1024 ≃ Fin (4 * 1024)) g, Fintype.sum_prod_type, Fin.sum_univ_four]
  simp only [he]

/-- The layer's output as the ordered sum of the four tiles plus the second bias. -/
theorem out_eq_tiles (e : Fin 16) (b : Fin 256) (d : Fin 1024) :
    out x w1 b1 w2 b2 (ix3 e b d)
      = (((tile x w1 b1 w2 e b d 0 + tile x w1 b1 w2 e b d 1) + tile x w1 b1 w2 e b d 2) + tile x w1 b1 w2 e b d 3) + b2 (ix2 e d) := by
  show (∑ c : Fin 4096, term x w1 b1 w2 e b d c) + b2 (ix2 e d) = _
  rw [sum_tiles]
  rfl

end FeedForward

end
-- ==== Proof.KI.Payload.lean ====
/-
  The body's arithmetic read at an index, on the extended reals (a change of float format is the identity there):
  the cast activations; a tile's partial product ∑ₖ silu(∑ⱼ x[b,j]·w1[k,j] + b1[k]) · w2[d,k]; the three stores'
  values (the product, the running sum plus the product, that plus the second bias).
-/
import proofs.«104673_j137438954163_2_alg».proof.Proof.Gen.KernelIdeal.Skeleton
import proofs.«104673_j137438954163_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand

open Cert.KernelIdeal Cert.KernelIdeal.Gen FeedForward

/-- A [1, 1, a] array recast as a vector [a] reads, at i, the operand at (0, 0, i). -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

theorem nt_lhs0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem nt_lhs1 (i : S256x1024.Idx) (q : dot_S256x1024_S1024x1024_S256x1024_1_1_0_0_n_n.contr.Idx) : (dot_S256x1024_S1024x1024_S256x1024_1_1_0_0_n_n.lhsIdx i q 1).val = (q ⟨0, by decide⟩).val :=
  dot_S256x1024_S1024x1024_S256x1024_1_1_0_0_n_n.lhsIdx_val_of_single rfl i q
theorem nt_rhs0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem nt_rhs1 (i : S256x1024.Idx) (q : dot_S256x1024_S1024x1024_S256x1024_1_1_0_0_n_n.contr.Idx) : (dot_S256x1024_S1024x1024_S256x1024_1_1_0_0_n_n.rhsIdx i q 1).val = (q ⟨0, by decide⟩).val :=
  dot_S256x1024_S1024x1024_S256x1024_1_1_0_0_n_n.rhsIdx_val_of_single rfl i q

/-- The matrix unit's product into a zero accumulator, both operands contracted along their second axis:
    out[b, d] = ∑ₖ l[b, k] · r[d, k]. -/
theorem matmul_nt_apply {φ₁ φ₂ : FTy} (l : FVec Ideal S256x1024 φ₁) (r : FVec Ideal S1024x1024 φ₂) (b : Fin 256) (d : Fin 1024) :
    matmul dot_S256x1024_S1024x1024_S256x1024_1_1_0_0_n_n none l r (constant S256x1024 .f32 0x00000000#32) (ix2 b d)
      = ∑ k : Fin 1024, l (ix2 b k) * r (ix2 d k) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 b d) ((ValueIdx.contrEquiv1 dot_S256x1024_S1024x1024_S256x1024_1_1_0_0_n_n 1024 rfl rfl).symm k) = ix2 b k := funext fun a => Fin.ext (by
    match a with
    | ⟨0, _⟩ => exact nt_lhs0 _ _
    | ⟨1, _⟩ => exact (nt_lhs1 _ _).trans hk)
  have er : dot_S256x1024_S1024x1024_S256x1024_1_1_0_0_n_n.rhsIdx (ix2 b d) ((ValueIdx.contrEquiv1 dot_S256x1024_S1024x1024_S256x1024_1_1_0_0_n_n 1024 rfl rfl).symm k) = ix2 d k := funext fun a => Fin.ext (by
    match a with
    | ⟨0, _⟩ => exact nt_rhs0 _ _
    | ⟨1, _⟩ => exact (nt_rhs1 _ _).trans hk)
  rw [el, er]

/-- A vector times its logistic, read at an index, is silu of the entry. -/
theorem silu_apply {s : Shape} (v : FVec Ideal s .f32) (i : s.Idx) : mulf v (logistic v) i = silu (v i) := rfl

/-- The cast of the activations' block at (b, j). -/
theorem pay1_apply (x0 : Vec Ideal S1x256x1024 .f32) (b : Fin 256) (j : Fin 1024) :
    k0_pay1 x0 (ix2 b j) = x0 (ix3 (0 : Fin 1) b j) := by
  unfold k0_pay1
  rw [shapeCast_self, truncf_apply, shapeCast_1ab_ab_apply]

/-- A tile's partial product at (b, d). -/
theorem pay2_apply (xs : Vec Ideal S256x1024 .bf16) (x1 : Vec Ideal S1x1024x1024 .f32) (x2 : Vec Ideal S1x1x1024 .f32)
    (x3 : Vec Ideal S1x1024x1024 .f32) (b : Fin 256) (d : Fin 1024) :
    k0_pay2 xs x1 x2 x3 (ix2 b d)
      = ∑ k : Fin 1024, silu ((∑ j : Fin 1024, xs (ix2 b j) * x1 (ix3 (0 : Fin 1) k j)) + x2 (ix3 (0 : Fin 1) (0 : Fin 1) k))
          * x3 (ix3 (0 : Fin 1) d k) := by
  unfold k0_pay2
  rw [matmul_nt_apply]
  refine Finset.sum_congr rfl fun k _ => ?_
  have hin : ∀ j : Fin 1024, truncf (F := Ideal) .bf16 (shapeCast S1024x1024 x1 shapeCasts_S1x1024x1024_S1024x1024) bitsLt_bf16_f32 (ix2 k j) = x1 (ix3 (0 : Fin 1) k j) := fun j => by
    rw [truncf_apply, shapeCast_1ab_ab_apply]
  rw [truncf_apply, truncf_apply, shapeCast_1ab_ab_apply, silu_apply, addf_apply, matmul_nt_apply,
    broadcastTo_1b_ab_apply, shapeCast_a_1a_apply, shapeCast_11a_a_apply]
  simp only [hin]

/-- The first store's value at (0, b, d): the tile's partial product. -/
theorem pay3_apply (xs : Vec Ideal S256x1024 .bf16) (x1 : Vec Ideal S1x1024x1024 .f32) (x2 : Vec Ideal S1x1x1024 .f32)
    (x3 : Vec Ideal S1x1024x1024 .f32) (u : Fin 1) (b : Fin 256) (d : Fin 1024) :
    k0_pay3 xs x1 x2 x3 (ix3 u b d) = k0_pay2 xs x1 x2 x3 (ix2 b d) := by
  unfold k0_pay3
  rw [shapeCast_ab_1ab_apply]

/-- The accumulating store's value at (0, b, d): the running sum plus the tile's partial product. -/
theorem pay4_apply (xs : Vec Ideal S256x1024 .bf16) (x1 : Vec Ideal S1x1024x1024 .f32) (x2 : Vec Ideal S1x1x1024 .f32)
    (x3 : Vec Ideal S1x1024x1024 .f32) (xo : Vec Ideal S1x256x1024 .f32) (u : Fin 1) (b : Fin 256) (d : Fin 1024) :
    k0_pay4 xs x1 x2 x3 xo (ix3 u b d) = xo (ix3 (0 : Fin 1) b d) + k0_pay2 xs x1 x2 x3 (ix2 b d) := by
  unfold k0_pay4
  rw [shapeCast_ab_1ab_apply, addf_apply, shapeCast_1ab_ab_apply]

/-- The last store's value at (0, b, d): what the buffer held plus the second bias at d. -/
theorem pay5_apply (x4 : Vec Ideal S1x1x1024 .f32) (v : Vec Ideal S1x256x1024 .f32) (u : Fin 1) (b : Fin 256) (d : Fin 1024) :
    k0_pay5 x4 v (ix3 u b d) = v (ix3 (0 : Fin 1) b d) + x4 (ix3 (0 : Fin 1) (0 : Fin 1) d) := by
  unfold k0_pay5
  rw [shapeCast_ab_1ab_apply, addf_apply, shapeCast_1ab_ab_apply, broadcastTo_1b_ab_apply, shapeCast_a_1a_apply, shapeCast_11a_a_apply]

end Cert.KernelIdeal.Hand

end
-- ==== Proof.KI.Blocks.lean ====
/-
  The blocks the windows hand the body, read off the argument arrays: at grid point t = 4e + f the activations' block
  is x[e], the first weights' block the rows 1024f … 1024f + 1023 of w1[e], the first bias's block those columns of
  b1[e], the second weights' block those columns of w2[e], the second bias's block b2[e]; the two biases reach the
  region reshaped with a unit middle axis, which reads back as the same entries.
-/
import proofs.«104673_j137438954163_2_alg».proof.Proof.KI.Pieces
import proofs.«104673_j137438954163_2_alg».proof.Proof.KI.Payload
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen FeedForward

variable {F : FTy → Type} [FloatOps F]
variable (m : (ℓ : Loc nD τ sig) → Buf (Elt F) ℓ) (ρ : Dev nD → PrngReg)

/-- The expert and the reduction tile of a grid point. -/
abbrev eOf (t : Fin cfg0.N) : Fin 16 := ⟨t.val / 4, by have := t.isLt; have h : cfg0.N = 64 := N_0; omega⟩
abbrev fOf (t : Fin cfg0.N) : Fin 4 := ⟨t.val % 4, by omega⟩

theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, _)
theorem idx4 : ∀ t : Fin cfg0.N, win0_4.index t (0 : Fin 3) = t.val / 4 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 4 ∧ win0_5.index t (1 : Fin 3) = 0 ∧ win0_5.index t (2 : Fin 3) = 0 :=
  (by decide +kernel : ∀ t : Fin grid0.N, _)

theorem iblk0_apply (c : Dev nD) (t : Fin cfg0.N) (u : Fin 1) (b : Fin 256) (j : Fin 1024) :
    (iblk m c 0 t : Vec F S1x256x1024 .f32) (ix3 u b j) = V m c main_arg0 (ix3 (eOf t) b j) := by
  obtain ⟨i0, i1, i2⟩ := idx0 t
  unfold iblk
  rw [View.read_apply]
  show V m c main_arg0 _ = V m c main_arg0 _
  congr 1
  funext a
  apply Fin.ext
  match a with
    | ⟨0, _⟩ => show win0_0.index t (0 : Fin 3) * 1 + 1 * (u).val = t.val / 4; have := u.isLt; omega
    | ⟨1, _⟩ => show win0_0.index t (1 : Fin 3) * 256 + 1 * (b).val = b.val; omega
    | ⟨2, _⟩ => show win0_0.index t (2 : Fin 3) * 1024 + 1 * (j).val = j.val; omega

theorem iblk1_apply (c : Dev nD) (t : Fin cfg0.N) (u : Fin 1) (k : Fin 1024) (j : Fin 1024) :
    (iblk m c 1 t : Vec F S1x1024x1024 .f32) (ix3 u k j) = V m c main_arg1 (ix3 (eOf t) (col (fOf t) k) j) := by
  obtain ⟨i0, i1, i2⟩ := idx1 t
  unfold iblk
  rw [View.read_apply]
  show V m c main_arg1 _ = V m c main_arg1 _
  congr 1
  funext a
  apply Fin.ext
  match a with
    | ⟨0, _⟩ => show win0_1.index t (0 : Fin 3) * 1 + 1 * (u).val = t.val / 4; have := u.isLt; omega
    | ⟨1, _⟩ => show win0_1.index t (1 : Fin 3) * 1024 + 1 * (k).val = 1024 * (t.val % 4) + k.val; omega
    | ⟨2, _⟩ => show win0_1.index t (2 : Fin 3) * 1024 + 1 * (j).val = j.val; omega

theorem iblk2_apply (c : Dev nD) (t : Fin cfg0.N) (u v : Fin 1) (k : Fin 1024) :
    (iblk m c 2 t : Vec F S1x1x1024 .f32) (ix3 u v k) = V m c main_v0 (ix3 (eOf t) (0 : Fin 1) (col (fOf t) k)) := by
  obtain ⟨i0, i1, i2⟩ := idx2 t
  unfold iblk
  rw [View.read_apply]
  show V m c main_v0 _ = V m c main_v0 _
  congr 1
  funext a
  apply Fin.ext
  match a with
    | ⟨0, _⟩ => show win0_2.index t (0 : Fin 3) * 1 + 1 * (u).val = t.val / 4; have := u.isLt; omega
    | ⟨1, _⟩ => show win0_2.index t (1 : Fin 3) * 1 + 1 * (v).val = 0; have := v.isLt; omega
    | ⟨2, _⟩ => show win0_2.index t (2 : Fin 3) * 1024 + 1 * (k).val = 1024 * (t.val % 4) + k.val; omega

theorem iblk3_apply (c : Dev nD) (t : Fin cfg0.N) (u : Fin 1) (d : Fin 1024) (k : Fin 1024) :
    (iblk m c 3 t : Vec F S1x1024x1024 .f32) (ix3 u d k) = V m c main_arg3 (ix3 (eOf t) d (col (fOf t) k)) := by
  obtain ⟨i0, i1, i2⟩ := idx3 t
  unfold iblk
  rw [View.read_apply]
  show V m c main_arg3 _ = V m c main_arg3 _
  congr 1
  funext a
  apply Fin.ext
  match a with
    | ⟨0, _⟩ => show win0_3.index t (0 : Fin 3) * 1 + 1 * (u).val = t.val / 4; have := u.isLt; omega
    | ⟨1, _⟩ => show win0_3.index t (1 : Fin 3) * 1024 + 1 * (d).val = d.val; omega
    | ⟨2, _⟩ => show win0_3.index t (2 : Fin 3) * 1024 + 1 * (k).val = 1024 * (t.val % 4) + k.val; omega

theorem iblk4_apply (c : Dev nD) (t : Fin cfg0.N) (u v : Fin 1) (d : Fin 1024) :
    (iblk m c 4 t : Vec F S1x1x1024 .f32) (ix3 u v d) = V m c main_v1 (ix3 (eOf t) (0 : Fin 1) d) := by
  obtain ⟨i0, i1, i2⟩ := idx4 t
  unfold iblk
  rw [View.read_apply]
  show V m c main_v1 _ = V m c main_v1 _
  congr 1
  funext a
  apply Fin.ext
  match a with
    | ⟨0, _⟩ => show win0_4.index t (0 : Fin 3) * 1 + 1 * (u).val = t.val / 4; have := u.isLt; omega
    | ⟨1, _⟩ => show win0_4.index t (1 : Fin 3) * 1 + 1 * (v).val = 0; have := v.isLt; omega
    | ⟨2, _⟩ => show win0_4.index t (2 : Fin 3) * 1024 + 1 * (d).val = d.val; omega

/-- The first bias as the region finds it, reshaped [16, 4096] → [16, 1, 4096], holds b1[e, k] at (e, 0, k). -/
theorem V_v0_apply (c : Dev nD) (e : Fin 16) (u : Fin 1) (k : Fin 4096) :
    V m c main_v0 (ix3 e u k) = m ((c : Thread nD τ).loc main_arg2) (ix2 e k) := by
  have e0 : (V m c main_v0 : S16x1x4096.Idx → Elt F .f32) = shapeCast S16x1x4096 (m ((c : Thread nD τ).loc main_arg2)) shapeCasts_S16x4096_S16x1x4096 := by
    dsimp only [V, hostOps0]; after_results; rfl
  rw [e0]
  exact shapeCast_apply _ _ _ _ (by
    show (S16x4096.rowMajor (ix2 e k)).val = (S16x1x4096.rowMajor (ix3 e u k)).val
    rw [Shape.rowMajor_val_two, Shape.rowMajor_val_three]
    show e.val * 4096 + k.val = (e.val * 1 + u.val) * 4096 + k.val
    have := u.isLt; omega)

/-- The second bias as the region finds it, reshaped [16, 1024] → [16, 1, 1024], holds b2[e, d] at (e, 0, d). -/
theorem V_v1_apply (c : Dev nD) (e : Fin 16) (u : Fin 1) (d : Fin 1024) :
    V m c main_v1 (ix3 e u d) = m ((c : Thread nD τ).loc main_arg4) (ix2 e d) := by
  have e0 : (V m c main_v1 : S16x1x1024.Idx → Elt F .f32) = shapeCast S16x1x1024 (m ((c : Thread nD τ).loc main_arg4)) shapeCasts_S16x1024_S16x1x1024 := by
    dsimp only [V, hostOps0]; after_results; rfl
  rw [e0]
  exact shapeCast_apply _ _ _ _ (by
    show (S16x1024.rowMajor (ix2 e d)).val = (S16x1x1024.rowMajor (ix3 e u d)).val
    rw [Shape.rowMajor_val_two, Shape.rowMajor_val_three]
    show e.val * 1024 + d.val = (e.val * 1 + u.val) * 1024 + d.val
    have := u.isLt; omega)

end Cert.KernelIdeal.Hand

end
-- ==== Proof.KI.Acc.lean ====
/-
  The running sum, by induction over the grid points. After point t = 4e + f the scratch holds the activations
  x[e] and the output's staging buffer holds, at (0, b, d), the ordered sum of the partial products of tiles
  0 … f of expert e — at f = 3 with the second bias added. Each step is one of the three cases of the body:
  f = 0 writes the first tile's product over the freshly cast activations; 0 < f adds tile f's product to what the
  point before left, over the kept scratch; f = 3 then adds b2[e, d].
-/
import proofs.«104673_j137438954163_2_alg».proof.Proof.KI.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen FeedForward

variable (m : (ℓ : Loc nD τ sig) → Buf (Elt Ideal) ℓ) (ρ : Dev nD → PrngReg)

/-- The five argument arrays on core c (the two biases before their reshape). -/
abbrev aX (c : Dev nD) : SX.Idx → EReal := V m c main_arg0
abbrev aW1 (c : Dev nD) : SW1.Idx → EReal := V m c main_arg1
abbrev aB1 (c : Dev nD) : SB1.Idx → EReal := m ((c : Thread nD τ).loc main_arg2)
abbrev aW2 (c : Dev nD) : SW2.Idx → EReal := V m c main_arg3
abbrev aB2 (c : Dev nD) : SB2.Idx → EReal := m ((c : Thread nD τ).loc main_arg4)

/-- A tile's partial product computed from blocks that are the tile's slices of the arrays is the layer's tile. -/
theorem tile_of_vars (X : SX.Idx → EReal) (W1 : SW1.Idx → EReal) (B1 : SB1.Idx → EReal) (W2 : SW2.Idx → EReal)
    (xs : Vec Ideal S256x1024 .bf16) (x1 : Vec Ideal S1x1024x1024 .f32) (x2 : Vec Ideal S1x1x1024 .f32) (x3 : Vec Ideal S1x1024x1024 .f32)
    (e : Fin 16) (f : Fin 4)
    (hxs : ∀ (b : Fin 256) (j : Fin 1024), xs (ix2 b j) = X (ix3 e b j))
    (h1 : ∀ (k j : Fin 1024), x1 (ix3 (0 : Fin 1) k j) = W1 (ix3 e (col f k) j))
    (h2 : ∀ (k : Fin 1024), x2 (ix3 (0 : Fin 1) (0 : Fin 1) k) = B1 (ix2 e (col f k)))
    (h3 : ∀ (d k : Fin 1024), x3 (ix3 (0 : Fin 1) d k) = W2 (ix3 e d (col f k)))
    (b : Fin 256) (d : Fin 1024) :
    k0_pay2 xs x1 x2 x3 (ix2 b d) = tile X W1 B1 W2 e b d f := by
  rw [pay2_apply]
  unfold tile term hid
  refine Finset.sum_congr rfl fun k _ => ?_
  simp only [hxs, h1, h2, h3]

/-- The same at a grid point's blocks. -/
theorem tile_at (c : Dev nD) (t : Fin cfg0.N) (xs : Vec Ideal S256x1024 .bf16)
    (hxs : ∀ (b : Fin 256) (j : Fin 1024), xs (ix2 b j) = V m c main_arg0 (ix3 (eOf t) b j)) (b : Fin 256) (d : Fin 1024) :
    k0_pay2 xs (iblk m c 1 t) (iblk m c 2 t) (iblk m c 3 t) (ix2 b d) = tile (aX m c) (aW1 m c) (aB1 m c) (aW2 m c) (eOf t) b d (fOf t) :=
  tile_of_vars (aX m c) (aW1 m c) (aB1 m c) (aW2 m c) xs (iblk m c 1 t) (iblk m c 2 t) (iblk m c 3 t) (eOf t) (fOf t) hxs
    (fun k j => iblk1_apply m c t 0 k j)
    (fun k => (iblk2_apply m c t 0 0 k).trans (V_v0_apply m c (eOf t) 0 (col (fOf t) k)))
    (fun d k => iblk3_apply m c t 0 d k) b d

/-- The ordered running sum of expert e's tiles 0 … f at (b, d); after the last tile, plus the second bias. -/
def accS (c : Dev nD) (e : Fin 16) (b : Fin 256) (d : Fin 1024) : ℕ → EReal
  | 0 => tile (aX m c) (aW1 m c) (aB1 m c) (aW2 m c) e b d 0
  | 1 => tile (aX m c) (aW1 m c) (aB1 m c) (aW2 m c) e b d 0 + tile (aX m c) (aW1 m c) (aB1 m c) (aW2 m c) e b d 1
  | 2 => (tile (aX m c) (aW1 m c) (aB1 m c) (aW2 m c) e b d 0 + tile (aX m c) (aW1 m c) (aB1 m c) (aW2 m c) e b d 1) + tile (aX m c) (aW1 m c) (aB1 m c) (aW2 m c) e b d 2
  | _ => (((tile (aX m c) (aW1 m c) (aB1 m c) (aW2 m c) e b d 0 + tile (aX m c) (aW1 m c) (aB1 m c) (aW2 m c) e b d 1) + tile (aX m c) (aW1 m c) (aB1 m c) (aW2 m c) e b d 2) + tile (aX m c) (aW1 m c) (aB1 m c) (aW2 m c) e b d 3) + aB2 m c (ix2 e d)

/-- What holds after position n: the scratch is the expert's activations, the output's buffer the running sum. -/
def Inv (c : Dev nD) (n : ℕ) (h : n < cfg0.N) : Prop :=
  (∀ (b : Fin 256) (j : Fin 1024), (outsAt0 m c n h).2 (ix2 b j) = V m c main_arg0 (ix3 (eOf ⟨n, h⟩) b j))
  ∧ (∀ (b : Fin 256) (d : Fin 1024), (outsAt0 m c n h).1 (ix3 (0 : Fin 1) b d) = accS m c (eOf ⟨n, h⟩) b d (n % 4))

theorem stepA (c : Dev nD) (t : Fin cfg0.N) (h0 : t.val % 4 = 0) : Inv m c t.val t.isLt := by
  have hA := outsAt0_A m c t h0
  have h2 := congrArg Prod.snd hA
  have h1 := congrArg Prod.fst hA
  dsimp only at h1 h2
  replace h2 := h2.trans (sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseA t h0).1 (caseA t h0).2.1 (caseA t h0).2.2.1 (caseA t h0).2.2.2 (iblk m c 0 t) (iblk m c 1 t) (iblk m c 2 t) (iblk m c 3 t) (iblk m c 4 t))
  replace h1 := h1.trans (out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseA t h0).1 (caseA t h0).2.1 (caseA t h0).2.2.1 (caseA t h0).2.2.2 (iblk m c 0 t) (iblk m c 1 t) (iblk m c 2 t) (iblk m c 3 t) (iblk m c 4 t))
  have hxs : ∀ (b : Fin 256) (j : Fin 1024), k0_pay1 (iblk m c 0 t) (ix2 b j) = V m c main_arg0 (ix3 (eOf t) b j) := fun b j =>
    (pay1_apply (iblk m c 0 t) b j).trans (iblk0_apply m c t 0 b j)
  refine ⟨fun b j => ?_, fun b d => ?_⟩
  · rw [h2]; exact hxs b j
  · rw [h1, h0]
    have hf : fOf t = 0 := Fin.ext h0
    refine (pay3_apply _ _ _ _ 0 b d).trans ?_
    rw [tile_at m c t _ hxs b d, hf]
    rfl

theorem stepBC (c : Dev nD) (t : Fin cfg0.N) (h0 : ¬t.val % 4 = 0)
    (ih : Inv m c (t.val - 1) (Nat.lt_of_le_of_lt (Nat.sub_le _ _) t.isLt)) : Inv m c t.val t.isLt := by
  obtain ⟨ihs, iha⟩ := ih
  have he : eOf ⟨t.val - 1, Nat.lt_of_le_of_lt (Nat.sub_le _ _) t.isLt⟩ = eOf t := Fin.ext (by show (t.val - 1) / 4 = t.val / 4; omega)
  rw [he] at ihs iha
  by_cases h3 : t.val % 4 = 3
  · have hC := outsAt0_C m c t h0 h3
    have h2 := congrArg Prod.snd hC
    have h1 := congrArg Prod.fst hC
    dsimp only at h1 h2
    replace h1 := h1.trans (out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseC t h3).1 (caseC t h3).2.1 (caseC t h3).2.2.1 (caseC t h3).2.2.2 (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2)
    refine ⟨fun b j => ?_, fun b d => ?_⟩
    · rw [h2]; exact ihs b j
    · rw [h1]
      refine (pay5_apply _ _ 0 b d).trans ?_
      rw [pay4_apply, iha b d, tile_at m c t _ ihs b d, iblk4_apply m c t 0 0 d, V_v1_apply m c (eOf t) 0 d]
      have hf : fOf t = 3 := Fin.ext h3
      rw [hf, h3, show (t.val - 1) % 4 = 2 from by omega]
      rfl
  · have hB := outsAt0_B m c t h0 h3
    have h2 := congrArg Prod.snd hB
    have h1 := congrArg Prod.fst hB
    dsimp only at h1 h2
    replace h1 := h1.trans (out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (caseB t h0 h3).1 (caseB t h0 h3).2.1 (caseB t h0 h3).2.2.1 (caseB t h0 h3).2.2.2 (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2)
    refine ⟨fun b j => ?_, fun b d => ?_⟩
    · rw [h2]; exact ihs b j
    · rw [h1, pay4_apply, iha b d, tile_at m c t _ ihs b d]
      rcases (show t.val % 4 = 1 ∨ t.val % 4 = 2 from by omega) with hm | hm
      · have hf : fOf t = 1 := Fin.ext hm
        rw [hf, hm, show (t.val - 1) % 4 = 0 from by omega]
        rfl
      · have hf : fOf t = 2 := Fin.ext hm
        rw [hf, hm, show (t.val - 1) % 4 = 1 from by omega]
        rfl

/-- The invariant holds after every point. -/
theorem inv (c : Dev nD) : ∀ (n : ℕ) (h : n < cfg0.N), Inv m c n h
  | 0, h => stepA m c ⟨0, h⟩ rfl
  | n + 1, h => by
    by_cases h0 : (n + 1) % 4 = 0
    · exact stepA m c ⟨n + 1, h⟩ h0
    · exact stepBC m c ⟨n + 1, h⟩ h0 (inv c n (Nat.lt_of_succ_lt h))

/-- After an expert's last tile the output's staging buffer holds the layer's output for that expert. -/
theorem after_last (c : Dev nD) (t : Fin cfg0.N) (h3 : t.val % 4 = 3) (b : Fin 256) (d : Fin 1024) :
    (outsAt0 m c t.val t.isLt).1 (ix3 (0 : Fin 1) b d) = out (aX m c) (aW1 m c) (aB1 m c) (aW2 m c) (aB2 m c) (ix3 (eOf t) b d) := by
  rw [(inv m c t.val t.isLt).2 b d, h3, out_eq_tiles]
  rfl

end Cert.KernelIdeal.Hand

end
-- ==== Proof.KI.Final.lean ====
/-
  From the blocks to the array. The output's block e is written back once, after expert e's last tile, and holds the
  layer's output for expert e; the sixteen blocks cover the result array; so the array ends as the layer's function of
  the five argument arrays, and the run is re-posted with that result named.
-/
import proofs.«104673_j137438954163_2_alg».proof.Proof.KI.Acc

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen FeedForward

variable (m : (ℓ : Loc nD τ sig) → Buf (Elt Ideal) ℓ) (ρ : Dev nD → PrngReg)

/-- The result array on core c: the layer's output of the argument arrays as launched. -/
abbrev result (c : Dev nD) : SX.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4))

theorem result_eq (c : Dev nD) : out (aX m c) (aW1 m c) (aB1 m c) (aW2 m c) (aB2 m c) = result m c := by
  show out (V m c main_arg0) (V m c main_arg1) _ (V m c main_arg3) _ = _
  rw [V_main_arg0, V_main_arg1, V_main_arg3]

/-- What a point writes back (only the points with f = 3 do) is its block of the result. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  obtain ⟨i0, i1, i2⟩ := idx5 t
  show (cfg0.win 5).cut (grid0.coords t) ((dats m 0 c).after 5 t) = _
  rw [after0_5]
  funext y
  obtain ⟨u, b, d, rfl⟩ : ∃ (u : Fin 1) (b : Fin 256) (d : Fin 1024), y = ix3 u b d := ⟨y 0, y 1, y 2, eq_ix3 y⟩
  obtain rfl : u = 0 := Subsingleton.elim _ _
  rw [View.read_apply]
  show (outsAt0 m c t.val t.isLt).1 (ix3 (0 : Fin 1) b d) = _
  rw [after_last m c t h3 b d, result_eq]
  refine congrArg (result m c) (funext fun a => Fin.ext ?_)
  match a with
  | ⟨0, _⟩ => show t.val / 4 = win0_5.index t (0 : Fin 3) * 1 + 1 * ((0 : Fin 1) : ℕ); omega
  | ⟨1, _⟩ => show b.val = win0_5.index t (1 : Fin 3) * 256 + 1 * b.val; omega
  | ⟨2, _⟩ => show d.val = win0_5.index t (2 : Fin 3) * 1024 + 1 * d.val; omega

/-- The result array after the run. -/
theorem final (c : Dev nD) : (dats m 0 c).arrAt 5 cfg0.N = result m c :=
  (dats m 0 c).arrAt_eq_of_cover 5 (result m c) (flushed_eq m c) fun i => by
    have hi0 : (i 0).val < 16 := (i 0).isLt
    have hi1 : (i 1).val < 256 := (i 1).isLt
    have hi2 : (i 2).val < 1024 := (i 2).isLt
    have hN : cfg0.N = 64 := N_0
    obtain ⟨t, ht⟩ : ∃ t : Fin cfg0.N, t.val = 4 * (i 0).val + 3 := ⟨⟨4 * (i 0).val + 3, by omega⟩, rfl⟩
    obtain ⟨e0, e1, e2⟩ := idx5 t
    refine ⟨t, (flush0_5 t).mpr (by omega), ?_⟩
    show i ∈ ((View.whole main_v2).slice (win0_5.rect t)).set
    rw [View.set_slice_whole, Rect.mem_set_unit]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 256 ≤ (i 1).val ∧ (i 1).val < win0_5.index t (1 : Fin 3) * 256 + 256; omega
    | ⟨2, _⟩ => show win0_5.index t (2 : Fin 3) * 1024 ≤ (i 2).val ∧ (i 2).val < win0_5.index t (2 : Fin 3) * 1024 + 1024; omega

/-- The run, read: the result array is the layer's output, the five arguments end as they began. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.KernelIdeal.Hand

end
-- ==== Proof.RefG.lean ====
/-
  The reference, index by index, is the layer's function: its two contractions are the sums over j and over the
  hidden column c, its broadcast biases read b1[e, c] and b2[e, d], and its spelled-out silu — z · (1 / (1 + exp (−z))) —
  is z · logistic z on the extended reals (the constant word 0x3F800000 is the real number 1).
-/
import proofs.«104673_j137438954163_2_alg».proof.Proof.Gen.ReferenceIdeal.Read
import proofs.«104673_j137438954163_2_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Read FeedForward

/-- The word 0x3F800000 is the real number 1. -/
theorem one_f32 : Ideal.ofBits .f32 0x3F800000#32 = 1 := by
  simp [Ideal.ofBits, Ideal.ieee, -EReal.coe_mul]; norm_num

/-- The reference's spelled-out silu of z is silu z. -/
theorem silu_spelled (z : EReal) :
    FloatOps.mulf (F := Ideal) (φ := .f32) z (FloatOps.hostDivf (FloatOps.ofBits .f32 0x3F800000#32)
      (FloatOps.addf (FloatOps.ofBits .f32 0x3F800000#32) (FloatOps.hostUnary .exp (FloatOps.hostNegf z)))) = silu z := by
  show z * Ideal.div (Ideal.ofBits .f32 0x3F800000#32) (Ideal.ofBits .f32 0x3F800000#32 + Ideal.exp (-z)) = z * Ideal.logistic z
  rw [one_f32]
  rfl

theorem lidx0_eq (i : S16x256x4096.Idx) (k : Fin 1024) : lidx_main_v0 i k = ix3 (i 0) (i 1) k :=
  funext fun a => Fin.ext (by match a with | ⟨0, _⟩ => rfl | ⟨1, _⟩ => rfl | ⟨2, _⟩ => rfl)
theorem ridx0_eq (i : S16x256x4096.Idx) (k : Fin 1024) : ridx_main_v0 i k = ix3 (i 0) (i 2) k :=
  funext fun a => Fin.ext (by match a with | ⟨0, _⟩ => rfl | ⟨1, _⟩ => rfl | ⟨2, _⟩ => rfl)
theorem idx12_eq (i : S16x256x4096.Idx) : idx_main_v1 (idx_main_v2 i) = ix2 (i 0) (i 2) :=
  funext fun a => Fin.ext (by match a with | ⟨0, _⟩ => rfl | ⟨1, _⟩ => rfl)
theorem lidx5_eq (i : S16x256x1024.Idx) (k : Fin 4096) : lidx_main_v5 i k = ix3 (i 0) (i 1) k :=
  funext fun a => Fin.ext (by match a with | ⟨0, _⟩ => rfl | ⟨1, _⟩ => rfl | ⟨2, _⟩ => rfl)
theorem ridx5_eq (i : S16x256x1024.Idx) (k : Fin 4096) : ridx_main_v5 i k = ix3 (i 0) (i 2) k :=
  funext fun a => Fin.ext (by match a with | ⟨0, _⟩ => rfl | ⟨1, _⟩ => rfl | ⟨2, _⟩ => rfl)
theorem idx67_eq (i : S16x256x1024.Idx) : idx_main_v6 (idx_main_v7 i) = ix2 (i 0) (i 2) :=
  funext fun a => Fin.ext (by match a with | ⟨0, _⟩ => rfl | ⟨1, _⟩ => rfl)

/-- The pre-activation stage at (e, b, c). -/
theorem v3_apply (x0 : SX.Idx → EReal) (x1 : SW1.Idx → EReal) (x2 : SB1.Idx → EReal) (e : Fin 16) (b : Fin 256) (c : Fin 4096) :
    val_main_v3 (F := Ideal) x0 x1 x2 (ix3 e b c) = hid x0 x1 x2 e b c := by
  rw [val_main_v3_apply, val_main_v0_apply, val_main_v2_apply, val_main_v1_apply, idx12_eq]
  simp only [lidx0_eq, ridx0_eq]
  rfl

/-- The activation stage at (e, b, c). -/
theorem v4_apply (x0 : SX.Idx → EReal) (x1 : SW1.Idx → EReal) (x2 : SB1.Idx → EReal) (e : Fin 16) (b : Fin 256) (c : Fin 4096) :
    val_main_v4 (F := Ideal) x0 x1 x2 (ix3 e b c) = silu (hid x0 x1 x2 e b c) := by
  rw [val_main_v4_apply, val_main_call0_v5_apply, val_main_call0_v4_apply, val_main_call0_cst_0_apply, val_main_call0_v3_apply,
    val_main_call0_v2_apply, val_main_call0_cst_apply, val_main_call0_v1_apply, val_main_call0_v0_apply, v3_apply]
  exact silu_spelled _

/-- The reference's result is the layer's output. -/
theorem ref_eq (x0 : SX.Idx → EReal) (x1 : SW1.Idx → EReal) (x2 : SB1.Idx → EReal) (x3 : SW2.Idx → EReal) (x4 : SB2.Idx → EReal) :
    val_main_v8 (F := Ideal) x0 x1 x2 x3 x4 = out x0 x1 x2 x3 x4 := by
  funext i
  obtain ⟨e, b, d, rfl⟩ : ∃ (e : Fin 16) (b : Fin 256) (d : Fin 1024), i = ix3 e b d := ⟨i 0, i 1, i 2, eq_ix3 i⟩
  rw [val_main_v8_apply, val_main_v5_apply, val_main_v7_apply, val_main_v6_apply, idx67_eq]
  simp only [lidx5_eq, ridx5_eq]
  show (∑ k : Fin 4096, val_main_v4 (F := Ideal) x0 x1 x2 (ix3 e b k) * x3 (ix3 e d k)) + x4 (ix2 e d) = _
  simp only [v4_apply]
  rfl

end Cert.ReferenceIdeal.RefValue

end
-- ==== Proof.lean ====
/-
  An expert feed-forward layer: for each of 16 experts, out[e] = silu(x[e] · w1[e]ᵀ + b1[e]) · w2[e]ᵀ + b2[e] with
  silu z = z · logistic z, on 256 tokens, model width 1024 and hidden width 4096.

  The kernel walks a grid (expert e, tile f) with the hidden width cut in four tiles of 1024 columns. At f = 0 it casts
  x[e] once into a scratch that it keeps for the expert, and writes the first tile's partial product
  ∑ₖ silu(∑ⱼ x[b,j]·w1[k,j] + b1[k]) · w2[d,k] into the output's resident block; at f > 0 it adds the tile's partial
  product to that block; at f = 3 it adds b2[e] as well, and the block is written back. The reference contracts over
  all 4096 hidden columns at once.

  On the extended reals a change of float format is the identity and a matrix product into a zero accumulator is the
  plain sum, so the kernel's block for expert e ends as the ordered sum of the four tiles' sums plus b2[e], and the
  reference's entry is the sum over all 4096 columns plus b2[e]: the same number, by regrouping a finite sum
  (addition on the extended reals is commutative and associative; no finiteness is needed). The reference spells silu
  as z · (1 / (1 + exp(−z))), which is z · logistic z there.

  The three frames: the kernel's body is run symbolically in its three control cases (f = 0; 0 < f < 3; f = 3), at the
  word level and at the extended reals alike, over proof data that name what the output's block and the scratch hold
  after every point; the reference's frame is its run with the result dropped. The ideal pass rewrote nothing, so the
  idealization claim is trivial.
-/
import proofs.«104673_j137438954163_2_alg».proof.Defs
import proofs.«104673_j137438954163_2_alg».proof.Proof.Gen.Kernel
import proofs.«104673_j137438954163_2_alg».proof.Proof.Gen.KernelIdeal
import proofs.«104673_j137438954163_2_alg».proof.Proof.Gen.ReferenceIdeal
import proofs.«104673_j137438954163_2_alg».proof.Proof.Gen.Pre_finite_inputs
import proofs.«104673_j137438954163_2_alg».proof.Proof.K.Frame
import proofs.«104673_j137438954163_2_alg».proof.Proof.KI.Final
import proofs.«104673_j137438954163_2_alg».proof.Proof.RefG
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Hand.frame (F := Bits) m ρ

/-- So does the kernel read on the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel's result array and the reference's are the layer's one function of arguments that agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
